-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S8192x64 : Shape := ⟨2, ![8192, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_

variable [Facts]

def fn {F : FTy → Type} [FloatOps F] (main_arg0 : FVec F S32768x64 .f32) (main_arg1 : FVec F S8192x64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S32768x64 : Shape := ⟨2, ![32768, 64]⟩
abbrev S8192x64 : Shape := ⟨2, ![8192, 64]⟩
abbrev S_ : Shape := ⟨0, ![]⟩
abbrev S8192 : Shape := ⟨1, ![8192]⟩
abbrev S1x8192 : Shape := ⟨2, ![1, 8192]⟩
abbrev S1024x64 : Shape := ⟨2, ![1024, 64]⟩
abbrev S4096x64 : Shape := ⟨2, ![4096, 64]⟩
abbrev S1x4096 : Shape := ⟨2, ![1, 4096]⟩
abbrev S1024 : Shape := ⟨1, ![1024]⟩
abbrev S1024x1 : Shape := ⟨2, ![1024, 1]⟩
abbrev S1024x4096 : Shape := ⟨2, ![1024, 4096]⟩
abbrev S4096 : Shape := ⟨1, ![4096]⟩

abbrev nBuf : Space → Nat
  | .hbm => 11
  | .vmem => 7
  | .smem => 0
  | _ => 0

abbrev bufTy : (tb : Table) → Fin (tcTables nBuf tb) → BufTy
  | .hbm, ⟨0, _⟩ => ⟨S32768x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S1x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x64, .f32⟩
  | .local _ .vmem, ⟨1, _⟩ => ⟨S1024x64, .f32⟩
  | .local _ .vmem, ⟨2, _⟩ => ⟨S4096x64, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v23 : BitVec 1 := Scalar.cmpi .eq arg1 c31_i32
  let v24 : BitVec 32 := Scalar.extui v23
  let c0_i32_11 : BitVec 32 := 0#32
  let v25 : BitVec 1 := Scalar.cmpi .ne v24 c0_i32_11
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x64_S8192_d1 : S8192x64.ReducesTo [1] S8192
  h_S_ : 0 < S_.numel
  bcast_S8192_S1x8192_1 : S8192.BroadcastsInDim S1x8192 (![1] : Fin 1 → Fin S1x8192.rank)
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  broadcasts_S1024x1_S1024x4096 : S1024x1.Broadcasts S1024x4096
  reduces_S1024x4096_S4096 : S1024x4096.Reduces [0] S4096
  shapeCasts_S4096_S1x4096 : S4096.ShapeCasts S1x4096
  reducesTo_S1x8192_S_d0_1 : S1x8192.ReducesTo [0, 1] S_
  dot_S1024x64_S4096x64_S1024x4096_1_1_0_0_n_n_wf : DotDims.WF S1024x64 S4096x64 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S32768x64.size a
  hwx0_0 : ∀ i : grid0.Coords, EltTy.bits .f32 = 32 ∨ (Rect.block (s := S32768x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S8192x64.size a
  hwx0_1 : ∀ i : grid0.Coords, EltTy.bits .f32 = 32 ∨ (Rect.block (s := S8192x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x8192.size a
  hwx0_2 : ∀ i : grid0.Coords, EltTy.bits .f32 = 32 ∨ (Rect.block (s := S1x8192) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x8192.size a
  hwx0_3 : ∀ i : grid0.Coords, EltTy.bits .f32 = 32 ∨ (Rect.block (s := S1x8192) S1x4096.size (cc0_transform_3 i) (hinb0_3 i)).WholeWords (EltTy.packing .f32)

variable [Facts₀]

def dot_S1024x64_S4096x64_S1024x4096_1_1_0_0_n_n : DotDims S1024x64 S4096x64 S1024x4096 where
  lhsContracting := [1]
  rhsContracting := [1]
  lhsNonContracting := [0]
  rhsNonContracting := [0]
  lhsBatch := []
  rhsBatch := []
  wf := dot_S1024x64_S4096x64_S1024x4096_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x64 : Shape := ⟨2, ![32768, 64]⟩
abbrev S8192x64 : Shape := ⟨2, ![8192, 64]⟩
abbrev S_ : Shape := ⟨0, ![]⟩
abbrev S32768 : Shape := ⟨1, ![32768]⟩
abbrev S8192 : Shape := ⟨1, ![8192]⟩
abbrev S32768x1 : Shape := ⟨2, ![32768, 1]⟩
abbrev S1x8192 : Shape := ⟨2, ![1, 8192]⟩
abbrev S32768x8192 : Shape := ⟨2, ![32768, 8192]⟩
abbrev S64x8192 : Shape := ⟨2, ![64, 8192]⟩

abbrev nBuf : Space → Nat
  | .hbm => 26
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S8192x64, .f32⟩
  | .hbm, ⟨2, _⟩ => ⟨S32768x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S32768x1, .f32⟩
  | .hbm, ⟨10, _⟩ => ⟨S1x8192, .f32⟩
  | .hbm, ⟨11, _⟩ => ⟨S32768x8192, .f32⟩
  | .hbm, ⟨12, _⟩ => ⟨S32768x8192, .f32⟩
  | .hbm, ⟨13, _⟩ => ⟨S32768x8192, .f32⟩
  | .hbm, ⟨14, _⟩ => ⟨S64x8192, .f32⟩
  | .hbm, ⟨15, _⟩ => ⟨S32768x8192, .f32⟩
  | .hbm, ⟨16, _⟩ => ⟨S_, .f32⟩
  | .hbm, ⟨17, _⟩ => ⟨S32768x8192, .f32⟩
  | .hbm, ⟨18, _⟩ => ⟨S32768x8192, .f32⟩
  | .hbm, ⟨19, _⟩ => ⟨S32768x8192, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S32768x64_S32768_d1 : S32768x64.ReducesTo [1] S32768
  h_S_ : 0 < S_.numel
  reducesTo_S8192x64_S8192_d1 : S8192x64.ReducesTo [1] S8192
  bcast_S32768_S32768x1_0 : S32768.BroadcastsInDim S32768x1 (![0] : Fin 1 → Fin S32768x1.rank)
  bcast_S8192_S1x8192_1 : S8192.BroadcastsInDim S1x8192 (![1] : Fin 1 → Fin S1x8192.rank)
  bcast_S32768x1_S32768x8192_0_1 : S32768x1.BroadcastsInDim S32768x8192 (![0, 1] : Fin 2 → Fin S32768x8192.rank)
  bcast_S1x8192_S32768x8192_0_1 : S1x8192.BroadcastsInDim S32768x8192 (![0, 1] : Fin 2 → Fin S32768x8192.rank)
  transposes_S8192x64_S64x8192_1_0 : S8192x64.Transposes [1, 0] S64x8192
  bcast_S_S32768x8192 : S_.BroadcastsInDim S32768x8192 (![] : Fin 0 → Fin S32768x8192.rank)
  reducesTo_S32768x8192_S8192_d0 : S32768x8192.ReducesTo [0] S8192
  reducesTo_S8192_S_d0 : S8192.ReducesTo [0] S_
  dot_S32768x64_S64x8192_S32768x8192_1_0_0_1_n_n_wf : DotDims.WF S32768x64 S64x8192 S32768x8192 [1] [0] [0] [1] [] []

variable [Facts₀]

def dot_S32768x64_S64x8192_S32768x8192_1_0_0_1_n_n : DotDims S32768x64 S64x8192 S32768x8192 where
  lhsContracting := [1]
  rhsContracting := [0]
  lhsNonContracting := [0]
  rhsNonContracting := [1]
  lhsBatch := []
  rhsBatch := []
  wf := dot_S32768x64_S64x8192_S32768x8192_1_0_0_1_n_n_wf

class Facts : Prop extends Facts₀ where

variable [Facts]
-- ==== Proof.Pieces.lean ====
/-
  What each control case of the kernel body leaves behind, as values.

  The body keeps a running minimum in a scratch row. At the first row block of a column block it resets the row to
  `+∞` and then folds the block's minimum in; at every later row block it folds the block's minimum into what the
  row block before left; at the last row block it also writes the output block: the running minimum plus the row of
  squared norms it is handed. Each is one covering store, so what the buffer holds afterwards is that store's value.
-/
import proofs.«149103_j40673340293237_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen
open Idealize.ShloMosaic.Tactic

variable {F : FTy → Type} [FloatOps F]

theorem hz : (![0, 0] : Fin 2 → Nat) = fun _ => 0 := funext fun a => by fin_cases a <;> rfl

/-- A later row block: the scratch row ends at the fold of the block's minimum into what it held. -/
theorem scratch_B (c : Dev nD) (i : grid0.Coords) (arg2 : Memref sig .tc .vmem S1024x64 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : ¬cond0_0 i) (hc1 : ¬cond0_1 i)
    (x0 : Vec F S1024x64 .f32) (x1 : Vec F S4096x64 .f32) (x2 : Vec F S1x4096 .f32) (xs0 : Vec F S1x4096 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg6.read_unread,
    View.ld_unit_zero (S := S1024x64) hz, View.ld_unit_zero (S := S4096x64) hz, View.ld_unit_zero (S := S1x4096) hz]

/-- The first row block: the scratch row is reset to `+∞` and the block's minimum folded into that. -/
theorem scratch_A (c : Dev nD) (i : grid0.Coords) (arg2 : Memref sig .tc .vmem S1024x64 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : cond0_0 i) (hc1 : ¬cond0_1 i)
    (x0 : Vec F S1024x64 .f32) (x1 : Vec F S4096x64 .f32) (x2 : Vec F S1x4096 .f32) :
    sout0_A_0 c i arg2 harg2 arg3 harg3 arg4 harg4 arg5 harg5 arg6 harg6 hc0 hc1 x0 x1 x2 = k0_pay2 x0 x1 k0_pay1 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x4096) hz, View.readCov_unit_zero (S := S1x4096) _ hz]
  simp only [View.readAt_eq_ld, harg2.read_unread, harg3.read_unread,
    View.ld_unit_zero (S := S1024x64) hz, View.ld_unit_zero (S := S4096x64) hz, View.ld_unit_zero (S := S1x4096) hz]

/-- The last row block: the scratch row as at any later row block, -/
theorem scratch_C (c : Dev nD) (i : grid0.Coords) (arg2 : Memref sig .tc .vmem S1024x64 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : ¬cond0_0 i) (hc1 : cond0_1 i)
    (x0 : Vec F S1024x64 .f32) (x1 : Vec F S4096x64 .f32) (x2 : Vec F S1x4096 .f32) (xs0 : Vec F S1x4096 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S1024x64) hz, View.ld_unit_zero (S := S4096x64) hz, View.ld_unit_zero (S := S1x4096) hz]

/-- and the output block: that running minimum plus the row of squared norms the point is handed. -/
theorem out_C (c : Dev nD) (i : grid0.Coords) (arg2 : Memref sig .tc .vmem S1024x64 .f32) (harg2 : arg2.IsWhole) (arg3 : Memref sig .tc .vmem S4096x64 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S1x4096 .f32) (harg6 : arg6.IsWhole) (hc0 : ¬cond0_0 i) (hc1 : cond0_1 i)
    (x0 : Vec F S1024x64 .f32) (x1 : Vec F S4096x64 .f32) (x2 : Vec F S1x4096 .f32) (xs0 : Vec F S1x4096 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S1024x64) hz, View.ld_unit_zero (S := S4096x64) hz, View.ld_unit_zero (S := S1x4096) hz,
    View.readCov_unit_zero (S := S1x4096) _ hz]

end Cert.KernelIdeal.Pieces

end
-- ==== Proof.Cases.lean ====
/-
  What the scratch row and the output block hold after each grid point, in terms of the body's stored values.

  At the first row block of a column block (`t % 32 = 0`) the scratch row ends at the block's minimum folded into the
  reset value; at any other it ends at the block's minimum folded into what the point before left; and at the last
  row block (`t % 32 = 31`) the output block is that scratch row plus the third window's block.
-/
import proofs.«149103_j40673340293237_2_alg».proof.Proof.Gen.KernelIdeal.Frame
import proofs.«149103_j40673340293237_2_alg».proof.Proof.Pieces

noncomputable section

namespace Cert.KernelIdeal.Cases

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The first row block of a column block. -/
theorem scratch_first (c : Dev nD) (t : Fin cfg0.N) (h0 : t.val % 32 = 0) :
    (outsAt0 m c t.val t.isLt).2 = k0_pay2 (iblk m c 0 t) (iblk m c 1 t) k0_pay1 := by
  have h1 : ¬t.val % 32 = 31 := by omega
  rw [outsAt0_A m c t h0 h1]
  dsimp only
  exact Pieces.scratch_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- Any later row block. -/
theorem scratch_step (c : Dev nD) (t : Fin cfg0.N) (h0 : ¬t.val % 32 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 32 = 31
  · rw [outsAt0_C m c t h0 h1]
    dsimp only
    exact Pieces.scratch_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.scratch_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (Nat.lt_of_le_of_lt (Nat.sub_le _ _) t.isLt)).2

/-- The last row block: the output block. -/
theorem out_last (c : Dev nD) (t : Fin cfg0.N) (h1 : t.val % 32 = 31) :
    (outsAt0 m c t.val t.isLt).1
      = k0_pay3 (k0_pay2 (iblk m c 0 t) (iblk m c 1 t) (outsAt0 m c (t.val - 1) (Nat.lt_of_le_of_lt (Nat.sub_le _ _) t.isLt)).2) (iblk m c 2 t) := by
  have h0 : ¬t.val % 32 = 0 := by omega
  rw [outsAt0_C m c t h0 h1]
  dsimp only
  exact Pieces.out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

end Cert.KernelIdeal.Cases

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel body's arithmetic, read at an index over the extended reals.

  One grid point sees a block `x0` of 1024 rows of `z` and a block `x1` of 4096 rows of `e`. For a row `r` of the
  first and a row `j` of the second the body forms

      rowNorm x0 r + cross x0 x1 r j,      rowNorm x0 r = ∑ₖ tanh(x0 r k)²,   cross x0 x1 r j = ∑ₖ (-2 · tanh(x0 r k)) · x1 j k

  (the change of float format before the matrix product is the identity on extended reals, and the product into a
  zero accumulator is the plain sum over the contracted axis), takes the minimum over the 1024 rows `r` starting from
  `+∞` (`tileMin`), and folds it into the running minimum it finds in the scratch row. At the last row block of a
  column block it adds the row of squared norms of `e` it is handed.
-/
import proofs.«149103_j40673340293237_2_alg».proof.Proof.Gen.KernelIdeal.Skeleton
import proofs.«149103_j40673340293237_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

/-- The scale the kernel folds into the left factor, `-2.0`, and the value the running minimum starts from, `+∞`,
    as the extended reals their bit patterns denote. -/
abbrev negTwo : EReal := Ideal.ofBits .f32 0xC0000000#32
abbrev posInf : EReal := Ideal.ofBits .f32 0x7F800000#32

/-- The squared norm of row `r` of `tanh x0`. -/
def rowNorm (x0 : FVec Ideal S1024x64 .f32) (r : Fin 1024) : EReal :=
  ∑ k : Fin 64, Ideal.tanh (x0 (ix2 r k)) * Ideal.tanh (x0 (ix2 r k))

/-- The scaled inner product of row `r` of `tanh x0` with row `j` of `x1`. -/
def cross (x0 : FVec Ideal S1024x64 .f32) (x1 : FVec Ideal S4096x64 .f32) (r : Fin 1024) (j : Fin 4096) : EReal :=
  ∑ k : Fin 64, (negTwo * Ideal.tanh (x0 (ix2 r k))) * x1 (ix2 j k)

/-- The minimum over the block's rows, from `+∞`. -/
def tileMin (x0 : FVec Ideal S1024x64 .f32) (x1 : FVec Ideal S4096x64 .f32) (j : Fin 4096) : EReal :=
  (Finset.univ : Finset (Fin 1024)).fold min posInf (fun r => rowNorm x0 r + cross x0 x1 r j)

/-- A sum over the second axis of a 1024 × 64 array, at row `r`. -/
theorem rowSum_apply (v : FVec Ideal S1024x64 .f32) (h : S1024x64.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k : Fin 64, v (ix2 r k) :=
  (Ideal.multiReduction_add_single v _ h hφ hacc (ix1 r)).trans
    (Finset.sum_congr rfl fun k _ => congrArg v (funext fun a => Fin.ext (by
      match a with
      | ⟨0, _⟩ => rfl
      | ⟨1, _⟩ => rfl)))

/-- A minimum over the first axis of a 1024 × 4096 array, at column `j`: the fold of `min` over the rows. -/
theorem colMin_apply (v : FVec Ideal S1024x4096 .f32) (h : S1024x4096.Reduces [0] S4096) (hφ : FKind.Formats .f32)
    (hacc : (0x7F800000#32 : BitVec 32) = FKind.minimumf.neutral .f32 hφ) (j : Fin 4096) :
    multiReduction .minimumf [0] S4096 v 0x7F800000#32 h hφ hacc (ix1 j)
      = (Finset.univ : Finset (Fin 1024)).fold min posInf (fun r => v (ix2 r j)) := by
  rw [multiReduction_minimumf_eq_fold]
  refine (h.fold_filter_drop_single _ _ v (ix1 j)).trans ?_
  refine congrArg (fun f => Finset.fold min posInf f (Finset.univ : Finset (Fin 1024))) (funext fun r => ?_)
  exact congrArg v (funext fun a => Fin.ext (by
    match a with
    | ⟨0, _⟩ => rfl
    | ⟨1, _⟩ => rfl))

/-- The operand indices of the matrix product at an output index: the left operand's row is the output's row, the
    right operand's row is the output's column. -/
theorem lhs_row (i : S1024x4096.Idx) (q : dot_S1024x64_S4096x64_S1024x4096_1_1_0_0_n_n.contr.Idx) :
    (dot_S1024x64_S4096x64_S1024x4096_1_1_0_0_n_n.lhsIdx i q 0).val = (i 0).val := by
  unfold DotDims.lhsIdx
  rw [dif_neg (show ¬(0 : Fin S1024x64.rank) ∈ dot_S1024x64_S4096x64_S1024x4096_1_1_0_0_n_n.lhsBatch by decide),
    dif_pos (show (0 : Fin S1024x64.rank) ∈ dot_S1024x64_S4096x64_S1024x4096_1_1_0_0_n_n.lhsNonContracting by decide)]
  rfl
theorem rhs_row (i : S1024x4096.Idx) (q : dot_S1024x64_S4096x64_S1024x4096_1_1_0_0_n_n.contr.Idx) :
    (dot_S1024x64_S4096x64_S1024x4096_1_1_0_0_n_n.rhsIdx i q 0).val = (i 1).val := by
  unfold DotDims.rhsIdx
  rw [dif_neg (show ¬(0 : Fin S4096x64.rank) ∈ dot_S1024x64_S4096x64_S1024x4096_1_1_0_0_n_n.rhsBatch by decide),
    dif_pos (show (0 : Fin S4096x64.rank) ∈ dot_S1024x64_S4096x64_S1024x4096_1_1_0_0_n_n.rhsNonContracting by decide)]
  rfl

/-- The matrix product contracting the second axis of both operands, into a zero accumulator, at `(r, j)`. -/
theorem matmul_rows_apply (l : FVec Ideal S1024x64 .bf16) (rr : FVec Ideal S4096x64 .bf16) (r : Fin 1024) (j : Fin 4096) :
    matmul dot_S1024x64_S4096x64_S1024x4096_1_1_0_0_n_n none l rr (constant S1024x4096 .f32 0x00000000#32) (ix2 r j)
      = ∑ k : Fin 64, l (ix2 r k) * rr (ix2 j k) := by
  simp only [matmul]
  rw [Ideal.matmul_constant_zero_apply,
    ← Equiv.sum_comp (contrEquiv1 dot_S1024x64_S4096x64_S1024x4096_1_1_0_0_n_n 64 rfl rfl).symm]
  refine Finset.sum_congr rfl fun k _ => ?_
  have hk := contrEquiv1_symm_val dot_S1024x64_S4096x64_S1024x4096_1_1_0_0_n_n 64 rfl rfl k
  have el : dot_S1024x64_S4096x64_S1024x4096_1_1_0_0_n_n.lhsIdx (ix2 r j) ((contrEquiv1 dot_S1024x64_S4096x64_S1024x4096_1_1_0_0_n_n 64 rfl rfl).symm k) = ix2 r k :=
    funext fun a => Fin.ext (by
      match a with
      | ⟨0, _⟩ => exact lhs_row _ _
      | ⟨1, _⟩ => exact (dot_S1024x64_S4096x64_S1024x4096_1_1_0_0_n_n.lhsIdx_val_of_single rfl _ _).trans hk)
  have er : dot_S1024x64_S4096x64_S1024x4096_1_1_0_0_n_n.rhsIdx (ix2 r j) ((contrEquiv1 dot_S1024x64_S4096x64_S1024x4096_1_1_0_0_n_n 64 rfl rfl).symm k) = ix2 j k :=
    funext fun a => Fin.ext (by
      match a with
      | ⟨0, _⟩ => exact rhs_row _ _
      | ⟨1, _⟩ => exact (dot_S1024x64_S4096x64_S1024x4096_1_1_0_0_n_n.rhsIdx_val_of_single rfl _ _).trans hk)
  rw [el, er]

/-- The value the body stores into the scratch row, at column `j`: the running minimum it found there against
    the block's minimum. -/
theorem pay2_apply (x0 : FVec Ideal S1024x64 .f32) (x1 : FVec Ideal S4096x64 .f32) (xs : FVec Ideal S1x4096 .f32)
    (j : Fin 4096) :
    k0_pay2 (F := Ideal) x0 x1 xs (ix2 (0 : Fin 1) j) = min (xs (ix2 (0 : Fin 1) j)) (tileMin x0 x1 j) := by
  unfold k0_pay2
  rw [shapeCast_self]
  refine congrArg (min (xs (ix2 (0 : Fin 1) j))) ?_
  refine (shapeCast_a_1a_apply _ _ (0 : Fin 1) j).trans ?_
  refine (colMin_apply _ _ _ _ j).trans ?_
  unfold tileMin
  refine congrArg (fun f => Finset.fold min posInf f (Finset.univ : Finset (Fin 1024))) (funext fun r => ?_)
  show broadcastTo S1024x4096 _ _ (ix2 r j) + matmul _ none _ _ _ (ix2 r j) = _
  refine congrArg₂ (· + ·) ?_ ?_
  · refine (broadcastTo_a1_ab_apply _ _ r j).trans ?_
    refine (shapeCast_a_a1_apply _ _ r (0 : Fin 1)).trans ?_
    exact rowSum_apply _ _ _ _ r
  · exact matmul_rows_apply _ _ r j

/-- The value the body stores into the output block at the last row block, at column `j`. -/
theorem pay3_apply (acc en : FVec Ideal S1x4096 .f32) (j : Fin 4096) :
    k0_pay3 (F := Ideal) acc en (ix2 (0 : Fin 1) j) = acc (ix2 (0 : Fin 1) j) + en (ix2 (0 : Fin 1) j) := by
  unfold k0_pay3
  rw [shapeCast_self]
  rfl

/-- The value the reset stores: `+∞` everywhere. -/
theorem pay1_apply (j : Fin 4096) : k0_pay1 (F := Ideal) (ix2 (0 : Fin 1) j) = posInf := by
  unfold k0_pay1
  rw [shapeCast_self]
  rfl

end Cert.KernelIdeal.Tile

end
-- ==== Proof.LibFiniteEntries.lean ====
/-
  Finite entries, on the extended reals — general facts for a claim whose precondition says "every float input is finite":

  * the coercion of a finite sum of reals is the sum of the coercions (so an identity between finite sums of products
    of real entries can be proved in `ℝ` and carried back);
  * an extended real whose absolute value `max x (-x)` compares below the float `+∞` is a real;
  * `jnp.all(|a| < +∞)` — a reduction by `and`, over all axes, of that comparison against the broadcast float `+∞` —
    being true makes every entry of `a` a real, for an array `a` of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.Pipeline.Value

noncomputable section

open scoped BigOperators

namespace Idealize.ShloMosaic.FiniteEntries

open Idealize.ShloMosaic Idealize.ShloMosaic.ValueIdx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The rank-0 shape has one index. -/
instance : Subsingleton (⟨0, ![]⟩ : Shape).Idx := ⟨fun _ _ => funext fun d => d.elim0⟩

/-- An extended real whose absolute value compares below the float `+∞` is a real: `max x (-x)` is `+∞` at both
    infinities. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- `jnp.all(|a| < +∞)` being true makes every entry of `a` a real. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi
          (cmpf .olt (Host.absf a) (broadcastInDim s ![] hb (constant (F := Ideal) ⟨0, ![]⟩ .f32 0x7F800000#32)))
          init hr hu ix0 = 1#1)
    (i : s.Idx) : ∃ r : ℝ, a i = r := by
  have hi := Host.reduce_andi_all _ init hr hu ix0 e i
  refine real_of_abs_lt (a i) ?_
  rw [cmpf_apply, broadcastInDim_apply ![] hb _ i ix0 fun d => d.elim0] at hi
  exact hi

end Idealize.ShloMosaic.FiniteEntries

end
-- ==== Proof.Spec.lean ====
/-
  The function both programs compute, over the extended reals, and the law that joins their two arrangements.

  For `z` of 32768 rows and `e` of 8192 rows, 64 columns each, write `t = tanh z`. The kernel forms, for a row `n` of `t`
  and a row `m` of `e`,

      dk n m = ∑ₖ t n k ² + ∑ₖ (-2 · t n k) · e m k,

  takes the minimum over `n` from `+∞` and only then adds `en m = 0 + ∑ₖ e m k ²`; the reference forms

      dr n m = ((0 + ∑ₖ t n k ²) + en m) - 2 · ∑ₖ t n k · e m k

  and takes the minimum of that. Both then average over `m`. When every entry of `z` and `e` is a real number all
  the sums are real numbers, so `dr n m = dk n m + en m` is an identity of real numbers (the scale moves across the
  sum, the terms are regrouped), and adding a real number commutes with a minimum from `+∞`. At an infinite entry
  neither step holds in general; this is where finiteness of the inputs is used.
-/
import proofs.«149103_j40673340293237_2_alg».proof.Proof.LibFiniteEntries
import Idealize.ShloMosaic.PureOps.Ideal.Laws
import Idealize.ShloMosaic.Lib.ValueIdx

noncomputable section

open scoped BigOperators

namespace Cert.Knn

open Idealize.ShloMosaic Idealize.ShloMosaic.ValueIdx

/-! ## The constants -/

theorem ofBits_two : Ideal.ofBits .f32 0x40000000#32 = ((2 : ℝ) : EReal) := by
  simp [Ideal.ofBits, Ideal.ieee, -EReal.coe_mul]; norm_num

theorem ofBits_negTwo : Ideal.ofBits .f32 0xC0000000#32 = ((-2 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

/-! ## The specification -/

/-- The two argument arrays, as functions of an index. -/
abbrev ZArr := (⟨2, ![32768, 64]⟩ : Shape).Idx → EReal
abbrev EArr := (⟨2, ![8192, 64]⟩ : Shape).Idx → EReal

/-- Every entry is a real number. -/
def Finite {s : Shape} (a : s.Idx → EReal) : Prop := ∀ i, ∃ r : ℝ, a i = r

/-- `tanh z` at `(n, k)`. -/
def th (z : ZArr) (n : Fin 32768) (k : Fin 64) : EReal := Ideal.tanh (z (ix2 n k))

/-- The squared norm of row `n` of `tanh z`, as the kernel's lane sum forms it. -/
def zn (z : ZArr) (n : Fin 32768) : EReal := ∑ k : Fin 64, th z n k * th z n k

/-- The squared norm of row `m` of `e`, as the host's sum from zero forms it. -/
def en (e : EArr) (m : Fin 8192) : EReal :=
  Ideal.ofBits .f32 0x00000000#32 + ∑ k : Fin 64, e (ix2 m k) * e (ix2 m k)

/-- The kernel's distance without the `e` norm. -/
def dk (z : ZArr) (e : EArr) (n : Fin 32768) (m : Fin 8192) : EReal :=
  zn z n + ∑ k : Fin 64, (Ideal.ofBits .f32 0xC0000000#32 * th z n k) * e (ix2 m k)

/-- The reference's distance. -/
def dr (z : ZArr) (e : EArr) (n : Fin 32768) (m : Fin 8192) : EReal :=
  ((Ideal.ofBits .f32 0x00000000#32 + zn z n) + en e m)
    - Ideal.ofBits .f32 0x40000000#32 * ∑ k : Fin 64, th z n k * e (ix2 m k)

/-- The kernel's column minimum, from `+∞`. -/
def colMin (z : ZArr) (e : EArr) (m : Fin 8192) : EReal :=
  (Finset.univ : Finset (Fin 32768)).fold min (Ideal.ofBits .f32 0x7F800000#32) (fun n => dk z e n m)

/-- What the kernel's region leaves at column `m` of its output row. -/
def outRow (z : ZArr) (e : EArr) (m : Fin 8192) : EReal := colMin z e m + en e m

/-- The mean over the columns: the sum from zero, divided by 8192. -/
def result (z : ZArr) (e : EArr) : (⟨0, ![]⟩ : Shape).Idx → EReal := fun _ =>
  Ideal.div (Ideal.ofBits .f32 0x00000000#32 + ∑ m : Fin 8192, outRow z e m) (Ideal.ofBits .f32 0x46000000#32)

/-! ## The law -/

/-- Adding a real number commutes with a minimum taken from `+∞`. -/
theorem fold_min_add_coe {ι : Type*} (s : Finset ι) (f : ι → EReal) (c : ℝ) :
    s.fold min ⊤ f + (c : EReal) = s.fold min ⊤ (fun i => f i + (c : EReal)) := by
  classical
  induction s using Finset.induction_on with
  | empty => simp
  | insert a s ha ih => rw [Finset.fold_insert ha, Finset.fold_insert ha, ← ih, min_add_add_right]

/-- On real entries `tanh z` is real. -/
theorem th_real {z : ZArr} (hz : Finite z) (n : Fin 32768) (k : Fin 64) : ∃ r : ℝ, th z n k = r := by
  obtain ⟨r, hr⟩ := hz (ix2 n k)
  exact ⟨Real.tanh r, by unfold th; rw [hr]; rfl⟩

/-- The reference's distance is the kernel's plus the `e` norm, and that norm is a real number. -/
theorem dr_eq {z : ZArr} {e : EArr} (hz : Finite z) (he : Finite e) (n : Fin 32768) (m : Fin 8192) :
    ∃ c : ℝ, en e m = c ∧ dr z e n m = dk z e n m + (c : EReal) := by
  choose t ht using fun k => th_real hz n k
  choose u hu using fun k => he (ix2 m k)
  refine ⟨0 + ∑ k : Fin 64, u k * u k, ?_, ?_⟩
  · unfold en
    simp only [hu, Ideal.ofBits_zero_f32, ← EReal.coe_mul, ← FiniteEntries.coe_sum, ← EReal.coe_zero, ← EReal.coe_add]
  · unfold dr dk en zn
    simp only [ht, hu, Ideal.ofBits_zero_f32, ofBits_two, ofBits_negTwo, ← EReal.coe_mul, ← FiniteEntries.coe_sum,
      ← EReal.coe_zero, ← EReal.coe_add, ← EReal.coe_sub]
    congr 1
    have h : ∑ k : Fin 64, (-2 * t k) * u k = -2 * ∑ k : Fin 64, t k * u k := by
      rw [Finset.mul_sum]; exact Finset.sum_congr rfl fun k _ => by ring
    rw [h]; ring

/-- So the reference's column minimum is the kernel's output row. -/
theorem fold_dr_eq {z : ZArr} {e : EArr} (hz : Finite z) (he : Finite e) (m : Fin 8192) :
    (Finset.univ : Finset (Fin 32768)).fold min (Ideal.ofBits .f32 0x7F800000#32) (fun n => dr z e n m) = outRow z e m := by
  obtain ⟨c, hc, _⟩ := dr_eq hz he ⟨0, by decide⟩ m
  have h : ∀ n, dr z e n m = dk z e n m + (c : EReal) := fun n => by
    obtain ⟨c', hc', h'⟩ := dr_eq hz he n m
    have : c' = c := EReal.coe_injective (hc'.symm.trans hc)
    rw [h', this]
  unfold outRow colMin
  rw [hc, ofBits_inf, fold_min_add_coe]
  exact congrArg (fun f => Finset.fold min ⊤ f Finset.univ) (funext h)

end Cert.Knn

end
-- ==== Proof.Blocks.lean ====
/-
  What each input window's block holds at a grid point, read at an index.

  The grid has 64 points; point `t` works on column block `t / 32` (4096 rows of `e`) and row block `t % 32` (1024 rows
  of `z`). Row `r` of the `z` block is row `(t % 32) · 1024 + r` of `z`; row `j` of the `e` block is row
  `(t / 32) · 4096 + j` of `e`; and the third window's block is that stretch of a one-row array the host lines before
  the region computed: the squared norms of the rows of `e`, summed from zero.
-/
import proofs.«149103_j40673340293237_2_alg».proof.Proof.Gen.KernelIdeal.Frame
import proofs.«149103_j40673340293237_2_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Blocks

open Idealize.ShloMosaic Idealize.ShloMosaic.TcCoe Idealize.SL.Sem Idealize.ShloMosaic.ValueIdx
open Cert.KernelIdeal Cert.KernelIdeal.Gen

/-- The block index of every window at every point, decided once over the grid. -/
theorem idx_facts : ∀ t : Fin cfg0.N, win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = 0 ∧ win0_2.index t (1 : Fin 2) = t.val / 32
    ∧ win0_3.index t (0 : Fin 2) = 0 ∧ win0_3.index t (1 : Fin 2) = t.val / 32 :=
  (by decide +kernel : ∀ t : Fin grid0.N, _)

theorem N_eq : cfg0.N = 64 := N_0

/-- The row of `z` that row `r` of the block at point `t` is, and the row of `e` that row `j` of its block is. -/
def rowOf (t : Fin cfg0.N) (r : Fin 1024) : Fin 32768 :=
  ⟨(t.val % 32) * 1024 + r.val, by have := r.isLt; omega⟩
def colOf (t : Fin cfg0.N) (j : Fin 4096) : Fin 8192 :=
  ⟨(t.val / 32) * 4096 + j.val, by have := j.isLt; have := t.isLt; have := N_eq; omega⟩

variable (m : (ℓ : Loc nD τ sig) → Buf (Elt Ideal) ℓ)

/-- The two argument arrays on core `c`. -/
abbrev zArr (c : Dev nD) : Knn.ZArr := m ((c : Thread nD τ).loc main_arg0)
abbrev eArr (c : Dev nD) : Knn.EArr := m ((c : Thread nD τ).loc main_arg1)

/-- The `z` block at point `t`. -/
theorem iblk0_apply (c : Dev nD) (t : Fin cfg0.N) (r : Fin 1024) (k : Fin 64) :
    (iblk m c 0 t : FVec Ideal S1024x64 .f32) (ix2 r k) = zArr m c (ix2 (rowOf t r) k) := by
  unfold iblk
  rw [View.read_apply]
  show V m c main_arg0 (((cfg0.win 0).blk t).view.emb (ix2 r k)) = _
  rw [V_main_arg0]
  refine congrArg (m ((c : Thread nD τ).loc main_arg0)) (funext fun a => Fin.ext ?_)
  obtain ⟨e0, e1, -⟩ := idx_facts t
  match a with
  | ⟨0, _⟩ => show win0_0.index t (0 : Fin 2) * 1024 + 1 * r.val = (t.val % 32) * 1024 + r.val; rw [e0]; omega
  | ⟨1, _⟩ => show win0_0.index t (1 : Fin 2) * 64 + 1 * k.val = k.val; rw [e1]; omega

/-- The `e` block at point `t`. -/
theorem iblk1_apply (c : Dev nD) (t : Fin cfg0.N) (j : Fin 4096) (k : Fin 64) :
    (iblk m c 1 t : FVec Ideal S4096x64 .f32) (ix2 j k) = eArr m c (ix2 (colOf t j) k) := by
  unfold iblk
  rw [View.read_apply]
  show V m c main_arg1 (((cfg0.win 1).blk t).view.emb (ix2 j k)) = _
  rw [V_main_arg1]
  refine congrArg (m ((c : Thread nD τ).loc main_arg1)) (funext fun a => Fin.ext ?_)
  obtain ⟨-, -, e2, e3, -⟩ := idx_facts t
  match a with
  | ⟨0, _⟩ => show win0_1.index t (0 : Fin 2) * 4096 + 1 * j.val = (t.val / 32) * 4096 + j.val; rw [e2]; omega
  | ⟨1, _⟩ => show win0_1.index t (1 : Fin 2) * 64 + 1 * k.val = k.val; rw [e3]; omega

/-- The one-row array the host lines before the region leave: the squared row norms of `e`, summed from zero, as a row. -/
theorem V_main_v2 (c : Dev nD) : (V m c main_v2 : S1x8192.Idx → Elt Ideal .f32)
    = broadcastInDim S1x8192 ![1] bcast_S8192_S1x8192_1
        (Host.reduceAdd (F := Ideal) (mulf (m ((c : Thread nD τ).loc main_arg1)) (m ((c : Thread nD τ).loc main_arg1)))
          (constant (F := Ideal) S_ .f32 0x00000000#32) reducesTo_S8192x64_S8192_d1 h_S_) := by
  show StableHlo.after hostOps0 (fun b => m (c, b)) (Proc.devRef .tc main_v2) = _
  after_results

/-- The host's sum of squares of row `j` of `e`, from zero. -/
theorem sumSq_apply (x : FVec Ideal S8192x64 .f32) (j : Fin 8192) :
    Host.reduceAdd (F := Ideal) (mulf x x) (constant (F := Ideal) S_ .f32 0x00000000#32) reducesTo_S8192x64_S8192_d1 h_S_ (ix1 j)
      = Knn.en x j := by
  simp only [Host.reduceAdd, Ideal.hostReduceAdd_def]
  rw [Ideal.hostReduceAdd_single reducesTo_S8192x64_S8192_d1 (by decide)]
  unfold Knn.en
  refine congrArg₂ (· + ·) rfl (Finset.sum_congr rfl fun k _ => ?_)
  have hi : (Shape.Reduces.lift (s := S8192x64) (t := S8192) (a := (1 : Fin 2)) (by decide) (ix1 j) k) = ix2 j k :=
    funext fun a => Fin.ext (by
      match a with
      | ⟨0, _⟩ => rfl
      | ⟨1, _⟩ => rfl)
  show x _ * x _ = _
  rw [hi]
  rfl

/-- That array at column `j`. -/
theorem en_apply (c : Dev nD) (j : Fin 8192) :
    (V m c main_v2 : S1x8192.Idx → Elt Ideal .f32) (ix2 (0 : Fin 1) j) = Knn.en (eArr m c) j := by
  rw [V_main_v2]
  refine (broadcastInDim_apply _ bcast_S8192_S1x8192_1 _ (ix2 (0 : Fin 1) j) (ix1 j) (fun a => match a with
    | ⟨0, _⟩ => by show j.val = if (8192 : Nat) = 1 then 0 else j.val; rw [if_neg (by decide)])).trans ?_
  exact sumSq_apply _ j

/-- The third window's block at point `t`: that stretch of the row of norms. -/
theorem iblk2_apply (c : Dev nD) (t : Fin cfg0.N) (j : Fin 4096) :
    (iblk m c 2 t : FVec Ideal S1x4096 .f32) (ix2 (0 : Fin 1) j) = Knn.en (eArr m c) (colOf t j) := by
  unfold iblk
  rw [View.read_apply]
  show V m c main_v2 (((cfg0.win 2).blk t).view.emb (ix2 (0 : Fin 1) j)) = _
  refine Eq.trans (congrArg (V m c main_v2) (funext fun a => Fin.ext ?_)) (en_apply m c (colOf t j))
  obtain ⟨-, -, -, -, e4, e5, -⟩ := idx_facts t
  match a with
  | ⟨0, _⟩ => show win0_2.index t (0 : Fin 2) * 1 + 1 * 0 = 0; rw [e4]
  | ⟨1, _⟩ => show win0_2.index t (1 : Fin 2) * 4096 + 1 * j.val = (t.val / 32) * 4096 + j.val; rw [e5]; omega

end Cert.KernelIdeal.Blocks

end
-- ==== Proof.Running.lean ====
/-
  A minimum accumulated block by block is the minimum over all the rows seen so far.

  A running value that starts at `+∞` and at row block `b` is replaced by its minimum with the minimum, from `+∞`, of the
  1024 distances of that block's rows is, after block `b`, the greatest lower bound of the distances of the rows below
  `(b + 1) · 1024`; carried as that universal property (`x` is below it iff `x` is below every such distance) the
  statement needs no enumeration of rows and one induction on the block. After the last block it is the minimum over
  every row.
-/
import proofs.«149103_j40673340293237_2_alg».proof.Proof.Spec

noncomputable section

namespace Cert.Knn

open Idealize.ShloMosaic Idealize.ShloMosaic.ValueIdx

/-- Row `r` of row block `b`. -/
def rowAt (b : ℕ) (hb : (b + 1) * 1024 ≤ 32768) (r : Fin 1024) : Fin 32768 :=
  ⟨b * 1024 + r.val, by have := r.isLt; omega⟩

/-- One step of the running minimum: if `prev` bounds exactly the rows below `b · 1024`, its minimum with block `b`'s
    minimum bounds exactly the rows below `(b + 1) · 1024`. -/
theorem le_min_fold_iff (D : Fin 32768 → EReal) (b : ℕ) (hb : (b + 1) * 1024 ≤ 32768) (prev x : EReal)
    (hprev : x ≤ prev ↔ ∀ n : Fin 32768, n.val < b * 1024 → x ≤ D n) :
    x ≤ min prev ((Finset.univ : Finset (Fin 1024)).fold min (Ideal.ofBits .f32 0x7F800000#32) (fun r => D (rowAt b hb r)))
      ↔ ∀ n : Fin 32768, n.val < (b + 1) * 1024 → x ≤ D n := by
  rw [le_min_iff, Finset.le_fold_min, hprev, ofBits_inf]
  constructor
  · rintro ⟨h1, -, h2⟩ n hn
    by_cases hlt : n.val < b * 1024
    · exact h1 n hlt
    · have hr : n.val - b * 1024 < 1024 := by omega
      have h := h2 ⟨n.val - b * 1024, hr⟩ (Finset.mem_univ _)
      have e : rowAt b hb ⟨n.val - b * 1024, hr⟩ = n := Fin.ext (by show b * 1024 + (n.val - b * 1024) = n.val; omega)
      rwa [e] at h
  · intro h
    refine ⟨fun n hn => h n (by omega), le_top, fun r _ => h _ ?_⟩
    show b * 1024 + r.val < (b + 1) * 1024
    have := r.isLt; omega

/-- At the first block the running value is `+∞`, which bounds no row yet. -/
theorem le_top_iff_none (D : Fin 32768 → EReal) (b : ℕ) (hb : b = 0) (x : EReal) :
    x ≤ Ideal.ofBits .f32 0x7F800000#32 ↔ ∀ n : Fin 32768, n.val < b * 1024 → x ≤ D n := by
  subst hb
  rw [ofBits_inf]
  exact ⟨fun _ n hn => absurd hn (by omega), fun _ => le_top⟩

/-- After the last block the running value is the minimum over every row. -/
theorem eq_colMin (z : ZArr) (e : EArr) (m : Fin 8192) (s : EReal)
    (h : ∀ x, x ≤ s ↔ ∀ n : Fin 32768, n.val < (31 + 1) * 1024 → x ≤ dk z e n m) : s = colMin z e m := by
  refine eq_of_forall_le_iff fun x => ?_
  unfold colMin
  rw [h, Finset.le_fold_min, ofBits_inf]
  exact ⟨fun hx => ⟨le_top, fun n _ => hx n (by have := n.isLt; omega)⟩, fun hx n _ => hx.2 n (Finset.mem_univ _)⟩

end Cert.Knn

end
-- ==== Proof.Invariant.lean ====
/-
  The scratch row is the running column minimum, and the output block is the column minimum plus the `e` norm.

  By induction on the grid point: after point `t` the scratch row at column `j` bounds exactly the kernel's distances
  from the rows of `z` below `(t % 32 + 1) · 1024` to row `(t / 32) · 4096 + j` of `e` (the first row block starts from
  `+∞`; every later one folds its block's minimum into what the point before left, and the point before has the same
  column block). At the last row block that is every row of `z`, and the output block is written from it.
-/
import proofs.«149103_j40673340293237_2_alg».proof.Proof.Cases
import proofs.«149103_j40673340293237_2_alg».proof.Proof.Payload
import proofs.«149103_j40673340293237_2_alg».proof.Proof.Blocks
import proofs.«149103_j40673340293237_2_alg».proof.Proof.Running

noncomputable section

namespace Cert.KernelIdeal.Column

open Idealize.ShloMosaic Idealize.ShloMosaic.TcCoe Idealize.SL.Sem Idealize.ShloMosaic.ValueIdx
open Cert.KernelIdeal Cert.KernelIdeal.Gen Cert.KernelIdeal.Blocks

variable (m : (ℓ : Loc nD τ sig) → Buf (Elt Ideal) ℓ)

theorem rowBlock_le (n : ℕ) : (n % 32 + 1) * 1024 ≤ 32768 := by omega

/-- The minimum the body takes over the block at point `t` is the minimum of the kernel's distances over that block's
    rows of `z`, to that row of `e`. -/
theorem tileMin_eq (c : Dev nD) (t : Fin cfg0.N) (j : Fin 4096) :
    Tile.tileMin (iblk m c 0 t) (iblk m c 1 t) j
      = (Finset.univ : Finset (Fin 1024)).fold min (Ideal.ofBits .f32 0x7F800000#32)
          (fun r => Knn.dk (zArr m c) (eArr m c) (Knn.rowAt (t.val % 32) (rowBlock_le t.val) r) (colOf t j)) := by
  unfold Tile.tileMin
  refine congrArg (fun f => Finset.fold min (Ideal.ofBits .f32 0x7F800000#32) f (Finset.univ : Finset (Fin 1024)))
    (funext fun r => ?_)
  have hr : Knn.rowAt (t.val % 32) (rowBlock_le t.val) r = rowOf t r := rfl
  rw [hr]
  unfold Tile.rowNorm Tile.cross Knn.dk Knn.zn Knn.th
  refine congrArg₂ (· + ·) (Finset.sum_congr rfl fun k _ => ?_) (Finset.sum_congr rfl fun k _ => ?_)
  · rw [iblk0_apply m c t r k]
  · rw [iblk0_apply m c t r k, iblk1_apply m c t j k]

/-- After point `n` the scratch row at column `j` bounds exactly the distances from the rows seen so far. -/
theorem scratch_le_iff (c : Dev nD) : ∀ (n : ℕ) (hn : n < cfg0.N) (j : Fin 4096) (x : EReal),
    x ≤ (outsAt0 m c n hn).2 (ix2 (0 : Fin 1) j)
      ↔ ∀ n' : Fin 32768, n'.val < (n % 32 + 1) * 1024 → x ≤ Knn.dk (zArr m c) (eArr m c) n' (colOf ⟨n, hn⟩ j) := by
  intro n
  induction n using Nat.strong_induction_on with
  | _ n ih =>
    intro hn j x
    by_cases h0 : n % 32 = 0
    · have hs : (outsAt0 m c n hn).2 = k0_pay2 (iblk m c 0 ⟨n, hn⟩) (iblk m c 1 ⟨n, hn⟩) (k0_pay1 (F := Ideal)) :=
        Cases.scratch_first m c ⟨n, hn⟩ h0
      rw [hs, Tile.pay2_apply (iblk m c 0 ⟨n, hn⟩) (iblk m c 1 ⟨n, hn⟩) (k0_pay1 (F := Ideal)) j, Tile.pay1_apply j,
        tileMin_eq m c ⟨n, hn⟩ j]
      exact Knn.le_min_fold_iff (fun n' => Knn.dk (zArr m c) (eArr m c) n' (colOf ⟨n, hn⟩ j)) (n % 32) (rowBlock_le n)
        _ x (Knn.le_top_iff_none _ (n % 32) h0 x)
    · have hp : n - 1 < cfg0.N := by omega
      have hs : (outsAt0 m c n hn).2 = k0_pay2 (iblk m c 0 ⟨n, hn⟩) (iblk m c 1 ⟨n, hn⟩) (outsAt0 m c (n - 1) hp).2 :=
        Cases.scratch_step m c ⟨n, hn⟩ h0
      rw [hs, Tile.pay2_apply (iblk m c 0 ⟨n, hn⟩) (iblk m c 1 ⟨n, hn⟩) (outsAt0 m c (n - 1) hp).2 j,
        tileMin_eq m c ⟨n, hn⟩ j]
      have e1 : (n - 1) % 32 + 1 = n % 32 := by omega
      have e2 : colOf ⟨n - 1, hp⟩ j = colOf ⟨n, hn⟩ j := Fin.ext (by
        show (n - 1) / 32 * 4096 + j.val = n / 32 * 4096 + j.val
        have : (n - 1) / 32 = n / 32 := by omega
        rw [this])
      have ih' := ih (n - 1) (by omega) hp j x
      rw [e1, e2] at ih'
      exact Knn.le_min_fold_iff (fun n' => Knn.dk (zArr m c) (eArr m c) n' (colOf ⟨n, hn⟩ j)) (n % 32) (rowBlock_le n)
        _ x ih'

/-- At the last row block of a column block the scratch row is the column minimum over every row of `z`. -/
theorem scratch_last (c : Dev nD) (t : Fin cfg0.N) (h1 : t.val % 32 = 31) (j : Fin 4096) :
    (outsAt0 m c t.val t.isLt).2 (ix2 (0 : Fin 1) j) = Knn.colMin (zArr m c) (eArr m c) (colOf t j) :=
  Knn.eq_colMin _ _ _ _ fun x => by
    have h := scratch_le_iff m c t.val t.isLt j x
    rw [h1] at h
    exact h

/-- and the output block is the column minimum plus the `e` norm. -/
theorem out_apply (c : Dev nD) (t : Fin cfg0.N) (h1 : t.val % 32 = 31) (j : Fin 4096) :
    (outsAt0 m c t.val t.isLt).1 (ix2 (0 : Fin 1) j) = Knn.outRow (zArr m c) (eArr m c) (colOf t j) := by
  have h0 : ¬t.val % 32 = 0 := by omega
  rw [Cases.out_last m c t h1, Tile.pay3_apply _ (iblk m c 2 t) j, ← Cases.scratch_step m c t h0, scratch_last m c t h1 j,
    iblk2_apply m c t j]
  rfl

end Cert.KernelIdeal.Column

end
-- ==== Proof.Final.lean ====
/-
  The kernel's whole run, read: the region's output array is the row of column minima plus `e` norms, and the host
  lines after the region average it.

  Only the last row block of each column block writes its output block back (`t % 32 = 31`), and what it writes is
  that stretch of `Knn.outRow`; the two such blocks tile the one-row array, so the array ends holding `Knn.outRow` at
  every column. The lines after the region sum the row from zero and divide by 8192.
-/
import proofs.«149103_j40673340293237_2_alg».proof.Proof.Invariant
import Idealize.ShloMosaic.Lib.Pipeline.Value
import Idealize.ShloMosaic.Lib.StableHlo.Run

noncomputable section

namespace Cert.KernelIdeal.Final

open Idealize.ShloMosaic Idealize.ShloMosaic.TcCoe Idealize.SL.Sem Idealize.ShloMosaic.ValueIdx
open Cert.KernelIdeal Cert.KernelIdeal.Gen Cert.KernelIdeal.Blocks
open Idealize.ShloMosaic.Pipeline (Dat)

variable (m : (ℓ : Loc nD τ sig) → Buf (Elt Ideal) ℓ) (ρ : Dev nD → PrngReg)

/-- What the region's output array ends holding: at column `i 1` the column minimum plus the `e` norm. -/
def outArr (c : Dev nD) : S1x8192.Idx → EReal := fun i => Knn.outRow (zArr m c) (eArr m c) ⟨(i 1).val, idx2_lt1 i⟩

/-- What a flushing point writes back is its block of that array. -/
theorem flushed_eq (c : Dev nD) (t : Fin cfg0.N) (hf : (cfg0.win 3).flush t = true) :
    (dats m 0 c).flushed 3 t = ((cfg0.win 3).blk t).view.read (Elt Ideal) (outArr m c) := by
  have h1 : t.val % 32 = 31 := (flush0_3 t).mp hf
  show (cfg0.win 3).cut (grid0.coords t) ((dats m 0 c).after 3 t) = _
  rw [after0_3]
  funext y
  obtain ⟨u, j, rfl⟩ : ∃ (u : Fin 1) (j : Fin 4096), y = ix2 u j := ⟨y 0, y 1, eq_ix2 y⟩
  obtain rfl : u = 0 := Subsingleton.elim _ _
  show (outsAt0 m c t.val t.isLt).1 (ix2 (0 : Fin 1) j) = outArr m c (((cfg0.win 3).blk t).view.emb (ix2 (0 : Fin 1) j))
  rw [Column.out_apply m c t h1 j]
  unfold outArr
  refine congrArg (Knn.outRow (zArr m c) (eArr m c)) (Fin.ext ?_)
  obtain ⟨-, -, -, -, -, -, e6, e7⟩ := idx_facts t
  show (t.val / 32) * 4096 + j.val = win0_3.index t (1 : Fin 2) * 4096 + 1 * j.val
  rw [e7]; omega

/-- An index of the array is in point `t`'s block iff each coordinate is in the block's range on its axis. -/
theorem mem_blk (t : Fin cfg0.N) (i : S1x8192.Idx) :
    i ∈ ((cfg0.win 3).blk t).view.set ↔ ∀ a : Fin 2, win0_3.index t a * S1x4096.size a ≤ (i a).val ∧ (i a).val < win0_3.index t a * S1x4096.size a + S1x4096.size a := by
  show i ∈ ((View.whole main_v3).slice (win0_3.rect t)).set ↔ _
  rw [View.set_slice_whole, Rect.mem_set_unit]
  exact Iff.rfl

/-- Every column is in the block of the last row block of its column block. -/
theorem cover (i : S1x8192.Idx) : ∃ t : Fin cfg0.N, (cfg0.win 3).flush t = true ∧ i ∈ ((cfg0.win 3).blk t).view.set := by
  have hi0 : (i 0).val < 1 := (i 0).isLt
  have hi1 : (i 1).val < 8192 := (i 1).isLt
  have hN := N_eq
  have hb : ((i 1).val / 4096) * 32 + 31 < cfg0.N := by omega
  refine ⟨⟨((i 1).val / 4096) * 32 + 31, hb⟩, (flush0_3 _).mpr (by show (((i 1).val / 4096) * 32 + 31) % 32 = 31; omega), ?_⟩
  rw [mem_blk]
  obtain ⟨-, -, -, -, -, -, e6, e7⟩ := idx_facts ⟨((i 1).val / 4096) * 32 + 31, hb⟩
  have e7' : win0_3.index ⟨((i 1).val / 4096) * 32 + 31, hb⟩ (1 : Fin 2) = (((i 1).val / 4096) * 32 + 31) / 32 := e7
  intro a
  match a with
  | ⟨0, _⟩ =>
    show win0_3.index ⟨((i 1).val / 4096) * 32 + 31, hb⟩ (0 : Fin 2) * 1 ≤ (i 0).val ∧ (i 0).val < win0_3.index ⟨((i 1).val / 4096) * 32 + 31, hb⟩ (0 : Fin 2) * 1 + 1
    rw [e6]; omega
  | ⟨1, _⟩ =>
    show win0_3.index ⟨((i 1).val / 4096) * 32 + 31, hb⟩ (1 : Fin 2) * 4096 ≤ (i 1).val ∧ (i 1).val < win0_3.index ⟨((i 1).val / 4096) * 32 + 31, hb⟩ (1 : Fin 2) * 4096 + 4096
    rw [e7']; omega

/-- So the output array ends holding `outArr`. -/
theorem final (c : Dev nD) : (dats m 0 c).arrAt 3 cfg0.N = outArr m c :=
  (dats m 0 c).arrAt_eq_of_cover 3 (outArr m c) (flushed_eq m c) cover

/-- The sum of the row from zero is the sum of `Knn.outRow` over the columns, from zero. -/
theorem sum_outArr (c : Dev nD) :
    ∑ i : S1x8192.Idx, outArr m c i = ∑ b : Fin 8192, Knn.outRow (zArr m c) (eArr m c) b := by
  rw [sum_idx2, Fintype.sum_unique]
  rfl

/-- The lines after the region leave the specification's result. -/
theorem tail_eq (c : Dev nD) :
    Pipeline.afterTail₀ cfgs (dats m) 0 (V0 m) [hostOps1] c main_v5 = Knn.result (zArr m c) (eArr m c) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v3)
      = outArr m c := (Pipeline.withArrays_arr spec0 launch0.win.arr_inj c _ _ 3).trans (final m c)
  rw [hw]
  funext i
  show Ideal.div (Ideal.hostReduceAdd _ (outArr m c) (Ideal.ofBits .f32 0x00000000#32) i) (Ideal.ofBits .f32 0x46000000#32) = _
  rw [Ideal.hostReduceAdd_total reducesTo_S1x8192_S_d0_1 (fun b => b.elim0) (outArr m c) _ i, sum_outArr]
  rfl

/-- The kernel's run: the result at the specification's value, the arguments unchanged. -/
theorem run : θ_run defs (onTc (τ := τ) (main (F := Ideal))) ⟨m, fun _ => 0, ρ⟩ fun r => ∀ c : Dev nD,
      r.2.mem ((c.tc : Thread nD τ).loc main_v5) = Knn.result (zArr m c) (eArr m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v5 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.RefStages.lean ====
/-
  The reference, read stage by stage at an index.

  Its distance array at `(n, m)` is `((0 + ∑ₖ tanh(z n k)²) + (0 + ∑ₖ e m k²)) - 2 · ∑ₖ tanh(z n k) · e m k` (the two
  broadcasts read the row and the column, the transpose swaps the axes back, the contraction is a plain sum); its
  minimum over axis 0 at `m` is the fold of `min` from `+∞` over the rows `n`; the mean is the sum from zero over `m`
  divided by 8192. On finite inputs the fold is the kernel's output row (`Knn.fold_dr_eq`), so the reference's result is
  the specification's.
-/
import proofs.«149103_j40673340293237_2_alg».proof.Proof.Gen.ReferenceIdeal.Run
import proofs.«149103_j40673340293237_2_alg».proof.Proof.Gen.ReferenceIdeal.Read
import proofs.«149103_j40673340293237_2_alg».proof.Proof.Spec
import Idealize.ShloMosaic.PureOps.Reduce

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-! ## The composed index maps, by coordinates -/

theorem idx_zn (n : Fin 32768) (mm : Fin 8192) (k : Fin 64) :
    idx_main_v2 (idx_main_v5 (idx_main_v7 (ix2 n mm))) k = ix2 n k :=
  funext fun a => Fin.ext (by match a with | ⟨0, _⟩ => rfl | ⟨1, _⟩ => rfl)

theorem idx_en (n : Fin 32768) (mm : Fin 8192) (k : Fin 64) :
    idx_main_v4 (idx_main_v6 (idx_main_v8 (ix2 n mm))) k = ix2 mm k :=
  funext fun a => Fin.ext (by match a with | ⟨0, _⟩ => rfl | ⟨1, _⟩ => rfl)

theorem idx_lhs (n : Fin 32768) (mm : Fin 8192) (k : Fin 64) : lidx_main_v11 (ix2 n mm) k = ix2 n k :=
  funext fun a => Fin.ext (by match a with | ⟨0, _⟩ => rfl | ⟨1, _⟩ => rfl)

theorem idx_rhs (n : Fin 32768) (mm : Fin 8192) (k : Fin 64) :
    idx_main_v10 (ridx_main_v11 (ix2 n mm) k) = ix2 mm k :=
  funext fun a => Fin.ext (by match a with | ⟨0, _⟩ => rfl | ⟨1, _⟩ => rfl)

/-- The shape fact of the minimum over axis 0, in the form that names the inserted coordinate. -/
theorem reduces_rows : S32768x8192.Reduces [0] S8192 := by decide +kernel

/-! ## The stages -/

/-- The distance array at `(n, m)`. -/
theorem dist_apply (x0 : (⟨S32768x64, .f32⟩ : BufTy).Contents (Elt Ideal)) (x1 : (⟨S8192x64, .f32⟩ : BufTy).Contents (Elt Ideal))
    (n : Fin 32768) (mm : Fin 8192) :
    val_main_v14 (F := Ideal) x0 x1 (ix2 n mm) = Knn.dr x0 x1 n mm := by
  rw [val_main_v14_apply, val_main_v9_apply, val_main_v7_apply, val_main_v5_apply, val_main_v2_apply,
    val_main_v8_apply, val_main_v6_apply, val_main_v4_apply, val_main_v13_apply, val_main_v12_apply,
    val_main_v11_apply]
  simp only [idx_zn, idx_en, idx_lhs, idx_rhs, val_main_v10_apply, val_main_v1_apply, val_main_v0_apply,
    val_main_v3_apply, val_main_cst_apply, val_main_cst_0_apply, val_main_cst_1_apply, Ideal.subf_def, Ideal.addf_def,
    Ideal.mulf_def, Ideal.hostUnary_tanh_def, Ideal.ofBits_def]
  rfl

/-- A minimum over axis 0 of a 32768 × 8192 array from `+∞`, at column `m`: the fold of `min` over the rows. -/
theorem minRows_apply (y : FVec Ideal S32768x8192 .f32) (mm : Fin 8192) :
    Host.reduce (FloatOps.minimumf (F := Ideal) (φ := .f32)) y (val_main_cst_2 (F := Ideal)) reducesTo_S32768x8192_S8192_d0 h_S_ (ix1 mm)
      = (Finset.univ : Finset (Fin 32768)).fold min (Ideal.ofBits .f32 0x7F800000#32) (fun n => y (ix2 n mm)) := by
  rw [Host.reduce_eq_fold_single (a := (0 : Fin 2)) (FloatOps.minimumf (F := Ideal) (φ := .f32)) y
    (val_main_cst_2 (F := Ideal)) reducesTo_S32768x8192_S8192_d0 reduces_rows h_S_ (ix1 mm)]
  refine congrArg (fun f => Finset.fold min (Ideal.ofBits .f32 0x7F800000#32) f (Finset.univ : Finset (Fin 32768)))
    (funext fun n => congrArg y (funext fun a => Fin.ext ?_))
  match a with
  | ⟨0, _⟩ => rfl
  | ⟨1, _⟩ => rfl

/-- The reference's column minimum at `m`. -/
theorem colMin_apply (x0 : (⟨S32768x64, .f32⟩ : BufTy).Contents (Elt Ideal)) (x1 : (⟨S8192x64, .f32⟩ : BufTy).Contents (Elt Ideal))
    (mm : Fin 8192) :
    val_main_v15 (F := Ideal) x0 x1 (ix1 mm)
      = (Finset.univ : Finset (Fin 32768)).fold min (Ideal.ofBits .f32 0x7F800000#32) (fun n => Knn.dr x0 x1 n mm) := by
  have h := minRows_apply (val_main_v14 (F := Ideal) x0 x1) mm
  refine h.trans ?_
  exact congrArg (fun f => Finset.fold min (Ideal.ofBits .f32 0x7F800000#32) f (Finset.univ : Finset (Fin 32768)))
    (funext fun n => dist_apply x0 x1 n mm)

/-- Indices of a vector are its one coordinate. -/
def idx1Equiv : S8192.Idx ≃ Fin 8192 where
  toFun j := j 0
  invFun := ix1
  left_inv j := (eq_ix1 j).symm
  right_inv _ := rfl

/-- On finite inputs the reference's result is the specification's. -/
theorem result_eq (x0 : (⟨S32768x64, .f32⟩ : BufTy).Contents (Elt Ideal)) (x1 : (⟨S8192x64, .f32⟩ : BufTy).Contents (Elt Ideal))
    (hz : Knn.Finite (s := ⟨2, ![32768, 64]⟩) x0) (he : Knn.Finite (s := ⟨2, ![8192, 64]⟩) x1) :
    val_main_v17 (F := Ideal) x0 x1 = Knn.result x0 x1 := by
  funext i
  rw [val_main_v17_apply, val_main_v16_apply]
  unfold Knn.result
  show Ideal.div (Ideal.ofBits .f32 0x00000000#32 + ∑ j : S8192.Idx, val_main_v15 (F := Ideal) x0 x1 j) (Ideal.ofBits .f32 0x46000000#32) = _
  refine congrArg (fun s => Ideal.div (Ideal.ofBits .f32 0x00000000#32 + s) (Ideal.ofBits .f32 0x46000000#32)) ?_
  refine Fintype.sum_equiv idx1Equiv _ _ fun j => ?_
  obtain ⟨b, rfl⟩ : ∃ b : Fin 8192, j = ix1 b := ⟨j 0, eq_ix1 j⟩
  show val_main_v15 (F := Ideal) x0 x1 (ix1 b) = Knn.outRow x0 x1 b
  rw [colMin_apply x0 x1 b]
  exact Knn.fold_dr_eq hz he b

end Cert.ReferenceIdeal.RefValue

end
-- ==== Proof.FiniteInputs.lean ====
/-
  The precondition: every entry of both inputs is a real number.

  `finite_inputs` is the conjunction of two `all(|a| < +∞)`; each conjunct being true makes every entry of its array a
  real number.
-/
import proofs.«149103_j40673340293237_2_alg».proof.Pre_finite_inputs
import proofs.«149103_j40673340293237_2_alg».proof.Proof.Gen.Pre_finite_inputs
import proofs.«149103_j40673340293237_2_alg».proof.Proof.LibFiniteEntries
import proofs.«149103_j40673340293237_2_alg».proof.Proof.Spec
import Idealize.ShloMosaic.Lib.Affine

noncomputable section

namespace Cert.Pre_finite_inputs.Entries

open Idealize.ShloMosaic Idealize.ShloMosaic.ValueIdx Cert.Pre_finite_inputs

/-- From the precondition to "both arrays are real". -/
theorem finite_of_pre (a0 : FVec Ideal S32768x64 .f32) (a1 : FVec Ideal S8192x64 .f32)
    (h : Cert.Pre_finite_inputs.fn (F := Ideal) a0 a1 = fun _ => 1#1) :
    Knn.Finite (s := ⟨2, ![32768, 64]⟩) a0 ∧ Knn.Finite (s := ⟨2, ![8192, 64]⟩) a1 := by
  have h' := congrFun h ix0
  dsimp only [Cert.Pre_finite_inputs.fn] at h'
  obtain ⟨h0, h1⟩ := IntOp.andi_eq_one.mp h'
  exact ⟨fun i => FiniteEntries.real_of_all a0 _ _ _ _ h0 i, fun i => FiniteEntries.real_of_all a1 _ _ _ _ h1 i⟩

end Cert.Pre_finite_inputs.Entries

end
-- ==== Proof.lean ====
/-
  The kernel computes, for every row `m` of `e`, the minimum over the rows `n` of `tanh z` of the squared distance
  `‖tanh z n‖² + ‖e m‖² - 2 ⟨tanh z n, e m⟩`, and averages over `m`. It does so by column blocks of 4096 rows of `e` and
  row blocks of 1024 rows of `z`: a scratch row carries the running minimum of `‖tanh z n‖² + ⟨-2 · tanh z n, e m⟩` across
  the 32 row blocks, and the `e` norm (computed once, before the region) is added when the last row block writes the
  output block; the lines after the region take the mean. The reference forms the whole 32768 × 8192 distance array,
  `(‖tanh z n‖² + ‖e m‖²) - 2 · ⟨tanh z n, e m⟩`, takes its minimum over `n` and the mean over `m`.

  Over the extended reals the two agree when the inputs are finite: every sum is then a real number, the scale `-2`
  moves across the contraction and the terms regroup (an identity of real numbers), adding the real `‖e m‖²` commutes
  with a minimum taken from `+∞`, and a minimum accumulated block by block is the minimum over all rows. The frames of
  the two kernel programs are the generated ones; the reference's is its generated run with the result dropped; the
  idealization rewrote nothing.
-/
import proofs.«149103_j40673340293237_2_alg».proof.Defs
import proofs.«149103_j40673340293237_2_alg».proof.Proof.Gen.Kernel
import proofs.«149103_j40673340293237_2_alg».proof.Proof.Gen.Kernel.Skeleton
import proofs.«149103_j40673340293237_2_alg».proof.Proof.Gen.Kernel.Launch
import proofs.«149103_j40673340293237_2_alg».proof.Proof.Gen.Kernel.Points
import proofs.«149103_j40673340293237_2_alg».proof.Proof.Gen.Kernel.Frame
import proofs.«149103_j40673340293237_2_alg».proof.Proof.Gen.KernelIdeal
import proofs.«149103_j40673340293237_2_alg».proof.Proof.Gen.KernelIdeal.Skeleton
import proofs.«149103_j40673340293237_2_alg».proof.Proof.Gen.KernelIdeal.Launch
import proofs.«149103_j40673340293237_2_alg».proof.Proof.Gen.KernelIdeal.Points
import proofs.«149103_j40673340293237_2_alg».proof.Proof.Gen.KernelIdeal.Frame
import proofs.«149103_j40673340293237_2_alg».proof.Proof.Gen.ReferenceIdeal
import proofs.«149103_j40673340293237_2_alg».proof.Proof.Gen.ReferenceIdeal.Run
import proofs.«149103_j40673340293237_2_alg».proof.Proof.Gen.ReferenceIdeal.Read
import proofs.«149103_j40673340293237_2_alg».proof.Proof.Gen.Pre_finite_inputs
import proofs.«149103_j40673340293237_2_alg».proof.Proof.Final
import proofs.«149103_j40673340293237_2_alg».proof.Proof.RefStages
import proofs.«149103_j40673340293237_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the mean over `m` of `min_n (‖tanh z n‖² + ⟨-2 · tanh z n, e m⟩) + ‖e m‖²`: the kernel by its
    run read back, the reference because on finite inputs its distance is the kernel's plus `‖e m‖²`. -/
theorem algebraic : Cert.algebraic_KernelIdeal_ReferenceIdeal := by
  intro m ρ m' ρ' hpre hagree
  refine ⟨fun c => Cert.Knn.result (Cert.KernelIdeal.Blocks.zArr m c) (Cert.KernelIdeal.Blocks.eArr m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  obtain ⟨hz, he⟩ := Cert.Pre_finite_inputs.Entries.finite_of_pre _ _ (hpre c)
  exact Cert.ReferenceIdeal.RefValue.result_eq _ _ hz he

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
